-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x64 : Shape := ⟨2, ![4194304, 64]⟩
abbrev S64x64 : Shape := ⟨2, ![64, 64]⟩
abbrev S64 : Shape := ⟨1, ![64]⟩
abbrev S_ : Shape := ⟨0, ![]⟩

class Facts : Prop where
  bcast_S_S4194304x64 : S_.BroadcastsInDim S4194304x64 (![] : Fin 0 → Fin S4194304x64.rank)
  reducesTo_S4194304x64_S_d0_1 : S4194304x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4194304x64 .f32) (main_arg1 : FVec F S64x64 .f32) (main_arg2 : FVec F S64 .f32) : IVec S_ 1 :=
  let main_v0 : FVec F S4194304x64 .f32 := Host.absf main_arg0
  let main_cst : FVec F S_ .f32 := constant S_ .f32 0x7F800000#32
  let main_v1 : FVec F S4194304x64 .f32 := broadcastInDim S4194304x64 ![] bcast_S_S4194304x64 main_cst
  let main_v2 : IVec S4194304x64 1 := cmpf .olt main_v0 main_v1
  let main_c : IVec S_ 1 := constantI S_ 1 1#1
  let main_v3 : IVec S_ 1 := (fun x v => Host.reduce IntOp.andi x v reducesTo_S4194304x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4194304x64 : Shape := ⟨2, ![4194304, 64]⟩
abbrev S64x64 : Shape := ⟨2, ![64, 64]⟩
abbrev S64 : Shape := ⟨1, ![64]⟩
abbrev S_ : Shape := ⟨0, ![]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S2097152x128 : Shape := ⟨2, ![2097152, 128]⟩
abbrev S16384x128 : Shape := ⟨2, ![16384, 128]⟩

abbrev nBuf : Space → Nat
  | .hbm => 14
  | .vmem => 6
  | .smem => 0
  | _ => 0

abbrev bufTy : (tb : Table) → Fin (tcTables nBuf tb) → BufTy
  | .hbm, ⟨0, _⟩ => ⟨S4194304x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S_, .f32⟩
  | .hbm, ⟨5, _⟩ => ⟨S64x64, .f32⟩
  | .hbm, ⟨6, _⟩ => ⟨S64x128, .f32⟩
  | .hbm, ⟨7, _⟩ => ⟨S64x128, .f32⟩
  | .hbm, ⟨8, _⟩ => ⟨S128x128, .f32⟩
  | .hbm, ⟨9, _⟩ => ⟨S128, .f32⟩
  | .hbm, ⟨10, _⟩ => ⟨S1x128, .f32⟩
  | .hbm, ⟨11, _⟩ => ⟨S2097152x128, .f32⟩
  | .hbm, ⟨12, _⟩ => ⟨S2097152x128, .f32⟩
  | .hbm, ⟨13, _⟩ => ⟨S4194304x64, .f32⟩
  | .local _ .vmem, ⟨0, _⟩ => ⟨S16384x128, .f32⟩
  | .local _ .vmem, ⟨1, _⟩ => ⟨S16384x128, .f32⟩
  | .local _ .vmem, ⟨2, _⟩ => ⟨S128x128, .f32⟩
  | .local _ .vmem, ⟨3, _⟩ => ⟨S1x128, .f32⟩
  | .local _ .vmem, ⟨4, _⟩ => ⟨S16384x128, .f32⟩
  | .local _ .vmem, ⟨5, _⟩ => ⟨S16384x128, .f32⟩
  | _, _ => ⟨S4194304x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S64x64_S64x64_1_0 : S64x64.Transposes [1, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  shapeCasts_S4194304x64_S2097152x128 : S4194304x64.ShapeCasts S2097152x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16384x128 : S1x128.Broadcasts S16384x128
  shapeCasts_S2097152x128_S4194304x64 : S2097152x128.ShapeCasts S4194304x64
  dot_S16384x128_S128x128_S16384x128_1_0_0_1_n_n_wf : DotDims.WF S16384x128 S128x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S2097152x128.size a
  hwx0_0 : ∀ i : grid0.Coords, EltTy.bits .f32 = 32 ∨ (Rect.block (s := S2097152x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x128.size a ≤ S2097152x128.size a
  hwx0_3 : ∀ i : grid0.Coords, EltTy.bits .f32 = 32 ∨ (Rect.block (s := S2097152x128) S16384x128.size (cc0_transform_3 i) (hinb0_3 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

abbrev win0_0 : Pipeline.Window sig grid0 :=
  Pipeline.Window.ofSpec (Memref.whole main_v7) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S16384x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304x64 : Shape := ⟨2, ![4194304, 64]⟩
abbrev S64x64 : Shape := ⟨2, ![64, 64]⟩
abbrev S64 : Shape := ⟨1, ![64]⟩
abbrev S1x64 : Shape := ⟨2, ![1, 64]⟩

abbrev nBuf : Space → Nat
  | .hbm => 7
  | .vmem => 0
  | .smem => 0
  | _ => 0

abbrev bufTy : (tb : Table) → Fin (tcTables nBuf tb) → BufTy
  | .hbm, ⟨0, _⟩ => ⟨S4194304x64, .f32⟩
  | .hbm, ⟨1, _⟩ => ⟨S64x64, .f32⟩
  | .hbm, ⟨2, _⟩ => ⟨S64, .f32⟩
  | .hbm, ⟨3, _⟩ => ⟨S4194304x64, .f32⟩
  | .hbm, ⟨4, _⟩ => ⟨S1x64, .f32⟩
  | .hbm, ⟨5, _⟩ => ⟨S4194304x64, .f32⟩
  | .hbm, ⟨6, _⟩ => ⟨S4194304x64, .f32⟩
  | _, _ => ⟨S4194304x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S4194304x64_0_1 : S1x64.BroadcastsInDim S4194304x64 (![0, 1] : Fin 2 → Fin S4194304x64.rank)
  dot_S4194304x64_S64x64_S4194304x64_1_1_0_0_n_n_wf : DotDims.WF S4194304x64 S64x64 S4194304x64 [1] [1] [0] [0] [] []

variable [Facts₀]

def dot_S4194304x64_S64x64_S4194304x64_1_1_0_0_n_n : DotDims S4194304x64 S64x64 S4194304x64 where
  lhsContracting := [1]
  rhsContracting := [1]
  lhsNonContracting := [0]
  rhsNonContracting := [0]
  lhsBatch := []
  rhsBatch := []
  wf := dot_S4194304x64_S64x64_S4194304x64_1_1_0_0_n_n_wf

class Facts : Prop extends Facts₀ where

variable [Facts]
-- ==== Proof.PackedDot.lean ====
/-
  Two consecutive rows packed into one 128-lane row, against a block-diagonal weight.

  A table `x` of 4194304 rows of 64 entries is re-read as 2097152 rows of 128 entries: packed row `r` holds rows
  `2r` and `2r + 1` of `x` side by side. The packed weight is 128 × 128 with the transposed 64 × 64 weight on its two
  diagonal blocks and zero elsewhere, and the packed bias is the bias twice. Then lane `s·64 + h` of packed output row
  `r` — the sum over all 128 lanes `k` of the packed row at `k` times the packed weight at `(k, s·64 + h)`, plus the packed
  bias — is entry `h` of the linear layer on row `2r + s` of `x`: the 64 lanes of the other half meet a zero of the weight,
  and a product with zero is zero for every extended real, so the sum over 128 lanes is the sum over the 64 lanes of half
  `s`. No finiteness is needed: only `a · 0 = 0` and `a + 0 = a` are used.
-/
import Idealize.ShloMosaic.Lib.ValueIdx
import Mathlib.Algebra.BigOperators.Fin

noncomputable section

open scoped BigOperators

namespace Cert.PackedDot

open Idealize.ShloMosaic Idealize.ShloMosaic.ValueIdx

/-- The linear layer with an output-major weight: entry `(n, h)` is `∑ i, x (n, i) · W (h, i) + b h`. -/
def lin (x : (⟨2, ![4194304, 64]⟩ : Shape).Idx → EReal) (W : (⟨2, ![64, 64]⟩ : Shape).Idx → EReal)
    (b : (⟨1, ![64]⟩ : Shape).Idx → EReal) : (⟨2, ![4194304, 64]⟩ : Shape).Idx → EReal :=
  fun i => (∑ k : Fin 64, x (ix2 (i 0) k) * W (ix2 (i 1) k)) + b (ix1 (i 1))

/-- The packed layer: entry `(r, j)` is `∑ k, X (r, k) · V (k, j) + c (0, j)`, the sum over all 128 lanes. -/
def packedLin (X : (⟨2, ![2097152, 128]⟩ : Shape).Idx → EReal) (V : (⟨2, ![128, 128]⟩ : Shape).Idx → EReal)
    (c : (⟨2, ![1, 128]⟩ : Shape).Idx → EReal) : (⟨2, ![2097152, 128]⟩ : Shape).Idx → EReal :=
  fun i => (∑ k : Fin 128, X (ix2 (i 0) k) * V (ix2 k (i 1))) + c (ix2 (0 : Fin 1) (i 1))

theorem lin_apply (x : (⟨2, ![4194304, 64]⟩ : Shape).Idx → EReal) (W : (⟨2, ![64, 64]⟩ : Shape).Idx → EReal)
    (b : (⟨1, ![64]⟩ : Shape).Idx → EReal) (n : Fin 4194304) (h : Fin 64) :
    lin x W b (ix2 n h) = (∑ k : Fin 64, x (ix2 n k) * W (ix2 h k)) + b (ix1 h) := rfl

theorem packedLin_apply (X : (⟨2, ![2097152, 128]⟩ : Shape).Idx → EReal) (V : (⟨2, ![128, 128]⟩ : Shape).Idx → EReal)
    (c : (⟨2, ![1, 128]⟩ : Shape).Idx → EReal) (r : Fin 2097152) (j : Fin 128) :
    packedLin X V c (ix2 r j) = (∑ k : Fin 128, X (ix2 r k) * V (ix2 k j)) + c (ix2 (0 : Fin 1) j) := rfl

/-- A sum over 128 lanes is the sum over the low 64 lanes plus the sum over the high 64 lanes. -/
theorem sum_halves (f : Fin 128 → EReal) :
    ∑ k : Fin 128, f k = (∑ i : Fin 64, f ⟨i.val, by omega⟩) + ∑ i : Fin 64, f ⟨64 + i.val, by omega⟩ :=
  Fin.sum_univ_add (a := 64) (b := 64) f

/-- The packed row against the block-diagonal weight: only the half of the lanes that holds row `2r + s` contributes. -/
theorem packed_sum
    (x : (⟨2, ![4194304, 64]⟩ : Shape).Idx → EReal) (W : (⟨2, ![64, 64]⟩ : Shape).Idx → EReal)
    (X : (⟨2, ![2097152, 128]⟩ : Shape).Idx → EReal) (V : (⟨2, ![128, 128]⟩ : Shape).Idx → EReal)
    (hX : ∀ (r : Fin 2097152) (k : Fin 128) (n : Fin 4194304) (i : Fin 64),
      n.val * 64 + i.val = r.val * 128 + k.val → X (ix2 r k) = x (ix2 n i))
    (hV : ∀ (k j : Fin 128) (i h : Fin 64) (s : Nat), k.val = s * 64 + i.val → j.val = s * 64 + h.val →
      V (ix2 k j) = W (ix2 h i))
    (hV0 : ∀ k j : Fin 128, k.val / 64 ≠ j.val / 64 → V (ix2 k j) = 0)
    (r : Fin 2097152) (j : Fin 128) (n : Fin 4194304) (h : Fin 64) (s : Nat) (hs : s < 2)
    (hn : n.val = 2 * r.val + s) (hj : j.val = s * 64 + h.val) :
    ∑ k : Fin 128, X (ix2 r k) * V (ix2 k j) = ∑ i : Fin 64, x (ix2 n i) * W (ix2 h i) := by
  rw [sum_halves]
  have hh := h.isLt
  interval_cases s
  · -- row 2r sits in the low half; the high half meets zeros
    have hz : ∑ i : Fin 64, X (ix2 r ⟨64 + i.val, by omega⟩) * V (ix2 ⟨64 + i.val, by omega⟩ j) = 0 :=
      Finset.sum_eq_zero fun i _ => by
        have hi := i.isLt
        rw [hV0 ⟨64 + i.val, by omega⟩ j (by show (64 + i.val) / 64 ≠ j.val / 64; omega), mul_zero]
    rw [hz, add_zero]
    refine Finset.sum_congr rfl fun i _ => ?_
    have hi := i.isLt
    rw [hX r ⟨i.val, by omega⟩ n i (by show n.val * 64 + i.val = r.val * 128 + i.val; omega),
      hV ⟨i.val, by omega⟩ j i h 0 (by show i.val = 0 * 64 + i.val; omega) hj]
  · -- row 2r + 1 sits in the high half; the low half meets zeros
    have hz : ∑ i : Fin 64, X (ix2 r ⟨i.val, by omega⟩) * V (ix2 ⟨i.val, by omega⟩ j) = 0 :=
      Finset.sum_eq_zero fun i _ => by
        have hi := i.isLt
        rw [hV0 ⟨i.val, by omega⟩ j (by show i.val / 64 ≠ j.val / 64; omega), mul_zero]
    rw [hz, zero_add]
    refine Finset.sum_congr rfl fun i _ => ?_
    have hi := i.isLt
    rw [hX r ⟨64 + i.val, by omega⟩ n i (by show n.val * 64 + i.val = r.val * 128 + (64 + i.val); omega),
      hV ⟨64 + i.val, by omega⟩ j i h 1 (by show 64 + i.val = 1 * 64 + i.val; omega) hj]

/-- Lane `s·64 + h` of packed output row `r` is entry `h` of the linear layer on row `2r + s`. -/
theorem packedLin_eq_lin
    (x : (⟨2, ![4194304, 64]⟩ : Shape).Idx → EReal) (W : (⟨2, ![64, 64]⟩ : Shape).Idx → EReal)
    (b : (⟨1, ![64]⟩ : Shape).Idx → EReal)
    (X : (⟨2, ![2097152, 128]⟩ : Shape).Idx → EReal) (V : (⟨2, ![128, 128]⟩ : Shape).Idx → EReal)
    (c : (⟨2, ![1, 128]⟩ : Shape).Idx → EReal)
    (hX : ∀ (r : Fin 2097152) (k : Fin 128) (n : Fin 4194304) (i : Fin 64),
      n.val * 64 + i.val = r.val * 128 + k.val → X (ix2 r k) = x (ix2 n i))
    (hV : ∀ (k j : Fin 128) (i h : Fin 64) (s : Nat), k.val = s * 64 + i.val → j.val = s * 64 + h.val →
      V (ix2 k j) = W (ix2 h i))
    (hV0 : ∀ k j : Fin 128, k.val / 64 ≠ j.val / 64 → V (ix2 k j) = 0)
    (hc : ∀ (j : Fin 128) (h : Fin 64), j.val % 64 = h.val → c (ix2 (0 : Fin 1) j) = b (ix1 h))
    (r : Fin 2097152) (j : Fin 128) (n : Fin 4194304) (h : Fin 64) (s : Nat) (hs : s < 2)
    (hn : n.val = 2 * r.val + s) (hj : j.val = s * 64 + h.val) :
    packedLin X V c (ix2 r j) = lin x W b (ix2 n h) := by
  show (∑ k : Fin 128, X (ix2 r k) * V (ix2 k j)) + c (ix2 (0 : Fin 1) j)
    = (∑ i : Fin 64, x (ix2 n i) * W (ix2 h i)) + b (ix1 h)
  rw [packed_sum x W X V hX hV hV0 r j n h s hs hn hj, hc j h (by have := h.isLt; omega)]

end Cert.PackedDot

end
-- ==== Proof.LibConcatRead.lean ====
/-
  Two-piece concatenations of small rank read at an entry.

  A concatenation of two arrays along an axis reads, at an index whose coordinate on that axis is below the first
  piece's extent, the first piece at the same coordinates; at or past it, the second piece with that coordinate lowered
  by the first extent. Stated here for the three forms a row- and lane-packing meets: two rank-2 arrays side by side
  (along the columns), two rank-2 arrays stacked (along the rows), and two rank-1 arrays end to end.
-/
import Idealize.ShloMosaic.Lib.ValueIdx
import Idealize.ShloMosaic.Lib.Pipeline.Value

noncomputable section

namespace Cert.Lib.ConcatRead

open Idealize.ShloMosaic Idealize.ShloMosaic.ValueIdx

variable {α : Type}

/-- Side by side, a column of the first piece. -/
theorem cols_left {a b₁ b₂ n : Nat} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (q : Fin n) (q' : Fin b₁)
    (hq : q'.val = q.val) :
    concatenate ⟨2, ![a, n]⟩ 1 [⟨⟨2, ![a, b₁]⟩, x₁⟩, ⟨⟨2, ![a, b₂]⟩, x₂⟩] h (ix2 p q) = x₁ (ix2 p q') :=
  concatenate_pair_apply_left 1 x₁ x₂ h (ix2 p q) rfl (ix2 p q') fun b => by
    match b with
    | ⟨0, _⟩ => rfl
    | ⟨1, _⟩ => exact hq

/-- Side by side, a column of the second piece. -/
theorem cols_right {a b₁ b₂ n : Nat} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (q : Fin n) (q' : Fin b₂)
    (hq : q'.val + b₁ = q.val) :
    concatenate ⟨2, ![a, n]⟩ 1 [⟨⟨2, ![a, b₁]⟩, x₁⟩, ⟨⟨2, ![a, b₂]⟩, x₂⟩] h (ix2 p q) = x₂ (ix2 p q') :=
  concatenate_pair_apply_right 1 x₁ x₂ h (ix2 p q) rfl rfl (ix2 p q') (fun b hb => by
    match b with
    | ⟨0, _⟩ => rfl
    | ⟨1, _⟩ => exact absurd rfl hb) hq

/-- Stacked, a row of the first piece. -/
theorem rows_left {a₁ a₂ b n : Nat} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0) (p : Fin n) (q : Fin b) (p' : Fin a₁)
    (hp : p'.val = p.val) :
    concatenate ⟨2, ![n, b]⟩ 0 [⟨⟨2, ![a₁, b]⟩, x₁⟩, ⟨⟨2, ![a₂, b]⟩, x₂⟩] h (ix2 p q) = x₁ (ix2 p' q) :=
  concatenate_pair_apply_left 0 x₁ x₂ h (ix2 p q) rfl (ix2 p' q) fun b => by
    match b with
    | ⟨0, _⟩ => exact hp
    | ⟨1, _⟩ => rfl

/-- Stacked, a row of the second piece. -/
theorem rows_right {a₁ a₂ b n : Nat} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0) (p : Fin n) (q : Fin b) (p' : Fin a₂)
    (hp : p'.val + a₁ = p.val) :
    concatenate ⟨2, ![n, b]⟩ 0 [⟨⟨2, ![a₁, b]⟩, x₁⟩, ⟨⟨2, ![a₂, b]⟩, x₂⟩] h (ix2 p q) = x₂ (ix2 p' q) :=
  concatenate_pair_apply_right 0 x₁ x₂ h (ix2 p q) rfl rfl (ix2 p' q) (fun b hb => by
    match b with
    | ⟨0, _⟩ => exact absurd rfl hb
    | ⟨1, _⟩ => rfl) hp

/-- End to end, an entry of the first piece. -/
theorem vec_left {a₁ a₂ n : Nat} (x₁ : (⟨1, ![a₁]⟩ : Shape).Idx → α) (x₂ : (⟨1, ![a₂]⟩ : Shape).Idx → α)
    (h : Shape.Concatenates [⟨1, ![a₁]⟩, ⟨1, ![a₂]⟩] ⟨1, ![n]⟩ 0) (p : Fin n) (p' : Fin a₁) (hp : p'.val = p.val) :
    concatenate ⟨1, ![n]⟩ 0 [⟨⟨1, ![a₁]⟩, x₁⟩, ⟨⟨1, ![a₂]⟩, x₂⟩] h (ix1 p) = x₁ (ix1 p') :=
  concatenate_pair_apply_left 0 x₁ x₂ h (ix1 p) rfl (ix1 p') fun b => by
    match b with
    | ⟨0, _⟩ => exact hp

/-- End to end, an entry of the second piece. -/
theorem vec_right {a₁ a₂ n : Nat} (x₁ : (⟨1, ![a₁]⟩ : Shape).Idx → α) (x₂ : (⟨1, ![a₂]⟩ : Shape).Idx → α)
    (h : Shape.Concatenates [⟨1, ![a₁]⟩, ⟨1, ![a₂]⟩] ⟨1, ![n]⟩ 0) (p : Fin n) (p' : Fin a₂) (hp : p'.val + a₁ = p.val) :
    concatenate ⟨1, ![n]⟩ 0 [⟨⟨1, ![a₁]⟩, x₁⟩, ⟨⟨1, ![a₂]⟩, x₂⟩] h (ix1 p) = x₂ (ix1 p') :=
  concatenate_pair_apply_right 0 x₁ x₂ h (ix1 p) rfl rfl (ix1 p') (fun b hb => by
    match b with
    | ⟨0, _⟩ => exact absurd rfl hb) hp

end Cert.Lib.ConcatRead

end
-- ==== Proof.EntryArrays.lean ====
/-
  What the region finds in its three input arrays, read at an entry.

  Before the region the program packs its arguments. The table `x` (4194304 × 64) is re-read as 2097152 × 128, which keeps
  every entry's row-major position: packed entry `(r, k)` is `x (n, i)` whenever `n·64 + i = r·128 + k`. The packed weight
  (128 × 128) stacks `[Wᵀ | 0]` on `[0 | Wᵀ]`: its entry `(s·64 + i, s·64 + h)` on a diagonal block is `W (h, i)`, and an entry
  whose row and column lie in different halves is zero. The packed bias (1 × 128) is the bias twice: its entry at lane `j`
  is `b (j mod 64)`.
-/
import proofs.«147376_j33913061769570_2_alg».proof.Proof.Gen.KernelIdeal.Frame
import proofs.«147376_j33913061769570_2_alg».proof.Proof.LibConcatRead
import Idealize.ShloMosaic.Lib.StableHlo.Run
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.StableHlo
open Idealize.ShloMosaic.ValueIdx

namespace Cert.KernelIdeal.Entry

open Cert.KernelIdeal Cert.KernelIdeal.Gen Cert.Lib.ConcatRead

variable (m : (ℓ : Loc nD τ sig) → Buf (Elt Ideal) ℓ)

/-! ## The three arrays as terms of the arguments -/

/-- The 64 × 64 block of zeros the packed weight is padded with. -/
abbrev zeroBlock : S64x64.Idx → EReal :=
  broadcastInDim S64x64 ![] bcast_S_S64x64 (constant (F := Ideal) S_ .f32 0x00000000#32)

/-- The packed weight from the weight: `[Wᵀ | 0]` stacked on `[0 | Wᵀ]`. -/
abbrev packW (W : S64x64.Idx → EReal) : S128x128.Idx → EReal :=
  concatenate S128x128 0
    [⟨S64x128, concatenate S64x128 1 [⟨S64x64, transpose S64x64 [1, 0] W transposes_S64x64_S64x64_1_0⟩, ⟨S64x64, zeroBlock⟩]
        concatenates_S64x64_S64x64_S64x128_d1⟩,
      ⟨S64x128, concatenate S64x128 1 [⟨S64x64, zeroBlock⟩, ⟨S64x64, transpose S64x64 [1, 0] W transposes_S64x64_S64x64_1_0⟩]
        concatenates_S64x64_S64x64_S64x128_d1⟩]
    concatenates_S64x128_S64x128_S128x128_d0

/-- The packed bias from the bias: the bias twice, as one row. -/
abbrev packB (b : S64.Idx → EReal) : S1x128.Idx → EReal :=
  shapeCast S1x128 (concatenate S128 0 [⟨S64, b⟩, ⟨S64, b⟩] concatenates_S64_S64_S128_d0) shapeCasts_S128_S1x128

/-- The packed table from the table: the same entries, two rows to a row. -/
abbrev packX (x : S4194304x64.Idx → EReal) : S2097152x128.Idx → EReal :=
  shapeCast S2097152x128 x shapeCasts_S4194304x64_S2097152x128

theorem table_eq (c : Dev nD) :
    (V m c main_v7 : S2097152x128.Idx → EReal) = packX (m ((c : Thread nD τ).loc main_arg0)) := by
  show StableHlo.after hostOps0 (fun b => m (c, b)) (Proc.devRef .tc main_v7) = _
  after_results
  rfl

theorem weight_eq (c : Dev nD) :
    (V m c main_v4 : S128x128.Idx → EReal) = packW (m ((c : Thread nD τ).loc main_arg1)) := by
  show StableHlo.after hostOps0 (fun b => m (c, b)) (Proc.devRef .tc main_v4) = _
  after_results

theorem bias_eq (c : Dev nD) :
    (V m c main_v6 : S1x128.Idx → EReal) = packB (m ((c : Thread nD τ).loc main_arg2)) := by
  show StableHlo.after hostOps0 (fun b => m (c, b)) (Proc.devRef .tc main_v6) = _
  after_results
  rfl

/-! ## Each read at an entry -/

/-- The transposed weight at `(p, q)` is the weight at `(q, p)`. -/
theorem transposeW_apply (W : S64x64.Idx → EReal) (p q : Fin 64) :
    transpose S64x64 [1, 0] W transposes_S64x64_S64x64_1_0 (ix2 p q) = W (ix2 q p) :=
  transpose_apply [1, 0] W _ (ix2 p q) (ix2 q p) fun b => by
    match b with
    | ⟨0, _⟩ => rfl
    | ⟨1, _⟩ => rfl

/-- Every entry of the zero block is zero. -/
theorem zeroBlock_apply (i : S64x64.Idx) : zeroBlock i = 0 := by
  show Ideal.ofBits .f32 0x00000000#32 = 0
  exact Ideal.ofBits_zero_f32

/-- The packed table keeps row-major positions. -/
theorem packX_apply (x : S4194304x64.Idx → EReal) (r : Fin 2097152) (k : Fin 128) (n : Fin 4194304) (i : Fin 64)
    (h : n.val * 64 + i.val = r.val * 128 + k.val) : packX x (ix2 r k) = x (ix2 n i) :=
  shapeCast_apply x _ (ix2 r k) (ix2 n i) (by
    rw [Shape.rowMajor_val_two, Shape.rowMajor_val_two]
    exact h)

/-- The packed weight on a diagonal block is the transposed weight. -/
theorem packW_diag (W : S64x64.Idx → EReal) (k j : Fin 128) (i h : Fin 64) (s : Nat)
    (hk : k.val = s * 64 + i.val) (hj : j.val = s * 64 + h.val) : packW W (ix2 k j) = W (ix2 h i) := by
  have hs : s < 2 := by have := k.isLt; omega
  interval_cases s
  · exact (rows_left _ _ _ k j i (by omega)).trans ((cols_left _ _ _ i j h (by omega)).trans (transposeW_apply W i h))
  · exact (rows_right _ _ _ k j i (by omega)).trans ((cols_right _ _ _ i j h (by omega)).trans (transposeW_apply W i h))

/-- The packed weight off the diagonal blocks is zero. -/
theorem packW_off (W : S64x64.Idx → EReal) (k j : Fin 128) (hkj : k.val / 64 ≠ j.val / 64) : packW W (ix2 k j) = 0 := by
  have hk := k.isLt
  have hj := j.isLt
  by_cases hlow : k.val < 64
  · have hj64 : 64 ≤ j.val := by omega
    have hjm : j.val - 64 < 64 := by omega
    exact (rows_left _ _ _ k j ⟨k.val, hlow⟩ rfl).trans
      ((cols_right _ _ _ ⟨k.val, hlow⟩ j ⟨j.val - 64, hjm⟩ (by show j.val - 64 + 64 = j.val; omega)).trans (zeroBlock_apply _))
  · have hj64 : j.val < 64 := by omega
    have hkm : k.val - 64 < 64 := by omega
    exact (rows_right _ _ _ k j ⟨k.val - 64, hkm⟩ (by show k.val - 64 + 64 = k.val; omega)).trans
      ((cols_left _ _ _ ⟨k.val - 64, hkm⟩ j ⟨j.val, hj64⟩ rfl).trans (zeroBlock_apply _))

/-- The packed bias at lane `j` is the bias at `j mod 64`. -/
theorem packB_apply (b : S64.Idx → EReal) (j : Fin 128) (h : Fin 64) (hjh : j.val % 64 = h.val) :
    packB b (ix2 (0 : Fin 1) j) = b (ix1 h) := by
  have hj := j.isLt
  have hh := h.isLt
  refine (shapeCast_apply _ shapeCasts_S128_S1x128 (ix2 (0 : Fin 1) j) (ix1 j) (by
    rw [Shape.rowMajor_val_one, Shape.rowMajor_val_two]
    show j.val = 0 * 128 + j.val
    omega)).trans ?_
  by_cases hlow : j.val < 64
  · exact vec_left _ _ _ j h (by omega)
  · exact vec_right _ _ _ j h (by omega)

end Cert.KernelIdeal.Entry

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.Body.lean ====
/-
  The body's stored value at an entry.

  At one grid point the body multiplies its 16384 × 128 block of the packed table by the whole 128 × 128 packed weight,
  into a zero accumulator, and adds the 1 × 128 packed bias repeated down the rows. At the ideal values entry `(p, q)` of
  what it stores is the sum over the 128 lanes `k` of the block at `(p, k)` times the weight at `(k, q)`, plus the bias
  row at `q`.
-/
import proofs.«147376_j33913061769570_2_alg».proof.Proof.Gen.KernelIdeal.Skeleton
import proofs.«147376_j33913061769570_2_alg».proof.Proof.LibPlainDot
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Body

open Cert.KernelIdeal Cert.KernelIdeal.Gen

/-- The body's dimension numbers are those of a plain `M × K` by `K × N` product. -/
theorem dot_plain : dot_S16384x128_S128x128_S16384x128_1_0_0_1_n_n = DotDims.plain 16384 128 128 := rfl

/-- A 1 × 128 row repeated down 16384 rows reads, at `(p, q)`, the row at `q`. -/
theorem rowRepeat_apply (v : S1x128.Idx → EReal) (p : Fin 16384) (q : Fin 128) :
    broadcastTo S16384x128 v broadcasts_S1x128_S16384x128 (ix2 p q) = v (ix2 (0 : Fin 1) q) :=
  broadcastTo_apply v broadcasts_S1x128_S16384x128 (ix2 p q) (ix2 (0 : Fin 1) q) fun a => by
    match a with
    | ⟨0, _⟩ => exact (if_pos rfl).symm
    | ⟨1, _⟩ =>
      show q.val = if (128 : Nat) = 1 then 0 else q.val
      rw [if_neg (by decide)]

/-- What the body stores, at entry `(p, q)`. -/
theorem pay_apply (x0 : Vec Ideal S16384x128 .f32) (x1 : Vec Ideal S128x128 .f32) (x2 : Vec Ideal S1x128 .f32)
    (p : Fin 16384) (q : Fin 128) :
    k0_pay1 (F := Ideal) x0 x1 x2 (ix2 p q)
      = (∑ k : Fin 128, x0 (ix2 p k) * x1 (ix2 k q)) + x2 (ix2 (0 : Fin 1) q) := by
  unfold k0_pay1
  simp only [shapeCast_self, matmul]
  rw [addf_apply, dot_plain, Cert.Lib.PlainDot.matmul_zero_apply, rowRepeat_apply]

end Cert.KernelIdeal.Body

end
-- ==== Proof.Blocks.lean ====
/-
  From the blocks to the whole packed output.

  The grid has 128 points. Point `t` reads rows `16384·t … 16384·t + 16383` of the packed table, the whole packed weight and
  the whole packed bias, and writes back rows `16384·t … 16384·t + 16383` of the packed output. Every row of the output
  lies in exactly one such block (that of `t = row / 16384`), and what point `t` writes back is the block of ONE whole-array
  function — the packed layer `packedLin` of the three arrays as the region finds them — so after the last point the packed
  output holds that function.
-/
import proofs.«147376_j33913061769570_2_alg».proof.Proof.Gen.KernelIdeal.Frame
import proofs.«147376_j33913061769570_2_alg».proof.Proof.Body
import proofs.«147376_j33913061769570_2_alg».proof.Proof.PackedDot
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem
open Idealize.ShloMosaic.ValueIdx
open Idealize.ShloMosaic.Pipeline (Dat)

namespace Cert.KernelIdeal.Blocks

open Cert.KernelIdeal Cert.KernelIdeal.Gen Cert.PackedDot

variable (m : (ℓ : Loc nD τ sig) → Buf (Elt Ideal) ℓ)

theorem hz : (![0, 0] : Fin 2 → Nat) = fun _ => 0 := funext fun a => by fin_cases a <;> rfl

/-- The block index of each window at each grid point: the table and the output move down one block per point, the
    weight and the bias stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the table's block at point `t` is row `16384·t + p` of the packed table. -/
theorem tableBlock_apply (c : Dev nD) (t : Fin cfg0.N) (p : Fin 16384) (k : Fin 128) (r : Fin 2097152)
    (hr : r.val = t.val * 16384 + p.val) :
    (iblk m c 0 t : Vec Ideal S16384x128 .f32) (ix2 p k) = (V m c main_v7 : S2097152x128.Idx → EReal) (ix2 r k) := by
  obtain ⟨e0, e1, -⟩ := idx_facts t
  unfold iblk
  rw [View.read_apply]
  show V m c main_v7 _ = V m c main_v7 _
  congr 1
  funext a
  apply Fin.ext
  match a with
  | ⟨0, _⟩ => show win0_0.index t (0 : Fin 2) * 16384 + 1 * p.val = r.val; rw [e0, hr]; omega
  | ⟨1, _⟩ => show win0_0.index t (1 : Fin 2) * 128 + 1 * k.val = k.val; rw [e1]; omega

/-- The weight's block at every point is the whole packed weight. -/
theorem weightBlock_apply (c : Dev nD) (t : Fin cfg0.N) (k q : Fin 128) :
    (iblk m c 1 t : Vec Ideal S128x128 .f32) (ix2 k q) = (V m c main_v4 : S128x128.Idx → EReal) (ix2 k q) := by
  obtain ⟨-, -, e0, e1, -⟩ := idx_facts t
  unfold iblk
  rw [View.read_apply]
  show V m c main_v4 _ = V m c main_v4 _
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The bias's block at every point is the whole packed bias. -/
theorem biasBlock_apply (c : Dev nD) (t : Fin cfg0.N) (q : Fin 128) :
    (iblk m c 2 t : Vec Ideal S1x128 .f32) (ix2 (0 : Fin 1) q) = (V m c main_v6 : S1x128.Idx → EReal) (ix2 (0 : Fin 1) q) := by
  obtain ⟨-, -, -, -, e0, e1, -⟩ := idx_facts t
  unfold iblk
  rw [View.read_apply]
  show V m c main_v6 _ = V m c main_v6 _
  congr 1
  funext a
  apply Fin.ext
  match a with
  | ⟨0, _⟩ => show win0_2.index t (0 : Fin 2) * 1 + 1 * 0 = 0; rw [e0]
  | ⟨1, _⟩ => show win0_2.index t (1 : Fin 2) * 128 + 1 * q.val = q.val; rw [e1]; omega

/-- WHAT POINT `t` WRITES BACK is block `t` of the packed layer of the three arrays as the region finds them. -/
theorem flushed_eq (c : Dev nD) (t : Fin cfg0.N) :
    (dats m 0 c).flushed 3 t = ((cfg0.win 3).blk t).view.read (Elt Ideal)
      (packedLin (V m c main_v7) (V m c main_v4) (V m c main_v6)) := by
  show (cfg0.win 3).cut (grid0.coords t) ((dats m 0 c).after 3 t) = _
  rw [after0_3]
  unfold out0_3
  rw [View.canon_unit_zero hz]
  simp only [View.ld_unit_zero (S := S16384x128) hz, View.ld_unit_zero (S := S128x128) hz, View.ld_unit_zero (S := S1x128) hz]
  funext j
  obtain ⟨p, q, rfl⟩ : ∃ (p : Fin 16384) (q : Fin 128), j = ix2 p q := ⟨j 0, j 1, eq_ix2 j⟩
  obtain ⟨-, -, -, -, -, -, e0, e1⟩ := idx_facts t
  have hN : cfg0.N = 128 := N_0
  have ht : t.val < 128 := by have := t.isLt; omega
  have hp := p.isLt
  let r : Fin 2097152 := ⟨t.val * 16384 + p.val, by omega⟩
  have hi : ((cfg0.win 3).blk t).view.emb (ix2 p q) = (ix2 r q : S2097152x128.Idx) := by
    funext a
    apply Fin.ext
    match a with
    | ⟨0, _⟩ => show win0_3.index t (0 : Fin 2) * 16384 + 1 * p.val = t.val * 16384 + p.val; rw [e0]; omega
    | ⟨1, _⟩ => show win0_3.index t (1 : Fin 2) * 128 + 1 * q.val = q.val; rw [e1]; omega
  show k0_pay1 (F := Ideal) (iblk m c 0 t) (iblk m c 1 t) (iblk m c 2 t) (ix2 p q)
    = packedLin (V m c main_v7) (V m c main_v4) (V m c main_v6) (((cfg0.win 3).blk t).view.emb (ix2 p q))
  rw [hi, packedLin_apply]
  refine (Body.pay_apply _ _ _ p q).trans (congrArg₂ (· + ·) ?_ ?_)
  · exact Finset.sum_congr rfl fun k _ => by rw [tableBlock_apply m c t p k r rfl, weightBlock_apply m c t k q]
  · exact biasBlock_apply m c t q

/-- An index of the packed output is in point `t`'s block iff each coordinate is in the block's range on its axis. -/
theorem mem_blk (t : Fin cfg0.N) (i : S2097152x128.Idx) :
    i ∈ ((cfg0.win 3).blk t).view.set ↔ ∀ a : Fin 2, win0_3.index t a * S16384x128.size a ≤ (i a).val
      ∧ (i a).val < win0_3.index t a * S16384x128.size a + S16384x128.size a := by
  show i ∈ ((View.whole main_v8).slice (win0_3.rect t)).set ↔ _
  rw [View.set_slice_whole, Rect.mem_set_unit]
  exact Iff.rfl

/-- Every row of the packed output is in the block of the point `row / 16384`. -/
theorem cover (i : S2097152x128.Idx) :
    ∃ t : Fin cfg0.N, (cfg0.win 3).flush t = true ∧ i ∈ ((cfg0.win 3).blk t).view.set := by
  have h0 : (i 0).val < 2097152 := (i 0).isLt
  have h1 : (i 1).val < 128 := (i 1).isLt
  have hN : cfg0.N = 128 := N_0
  have hlt : (i 0).val / 16384 < cfg0.N := by rw [hN]; omega
  obtain ⟨-, -, -, -, -, -, e0, e1⟩ := idx_facts ⟨(i 0).val / 16384, hlt⟩
  refine ⟨⟨(i 0).val / 16384, hlt⟩, flush0_3 _, ?_⟩
  rw [mem_blk]
  intro a
  match a with
  | ⟨0, _⟩ =>
    show win0_3.index ⟨(i 0).val / 16384, hlt⟩ (0 : Fin 2) * 16384 ≤ (i 0).val
      ∧ (i 0).val < win0_3.index ⟨(i 0).val / 16384, hlt⟩ (0 : Fin 2) * 16384 + 16384
    rw [e0]
    show (i 0).val / 16384 * 16384 ≤ (i 0).val ∧ (i 0).val < (i 0).val / 16384 * 16384 + 16384
    omega
  | ⟨1, _⟩ =>
    show win0_3.index ⟨(i 0).val / 16384, hlt⟩ (1 : Fin 2) * 128 ≤ (i 1).val
      ∧ (i 1).val < win0_3.index ⟨(i 0).val / 16384, hlt⟩ (1 : Fin 2) * 128 + 128
    rw [e1]
    omega

/-- THE PACKED OUTPUT after the last point: the packed layer of the three arrays as the region finds them. -/
theorem final (c : Dev nD) :
    (dats m 0 c).arrAt 3 cfg0.N = packedLin (V m c main_v7) (V m c main_v4) (V m c main_v6) :=
  (dats m 0 c).arrAt_eq_of_cover 3 _ (fun t _ => flushed_eq m c t) cover

end Cert.KernelIdeal.Blocks

end
-- ==== Proof.Whole.lean ====
/-
  The kernel's result as one function of its arguments.

  After the region the program re-reads the 2097152 × 128 packed output as 4194304 × 64, which keeps every entry's
  row-major position: result entry `(n, h)` is packed entry `(n / 2, (n mod 2)·64 + h)`. The packed output is the packed
  layer of the packed table, weight and bias, and lane `s·64 + h` of its row `r` is entry `h` of the linear layer on row
  `2r + s`; with `r = n / 2` and `s = n mod 2` that row is `n`. So the result is the linear layer
  `∑ i, x (n, i) · W (h, i) + b h` of the arguments, entry by entry, and the arguments are left as they were.
-/
import proofs.«147376_j33913061769570_2_alg».proof.Proof.Gen.KernelIdeal.Frame
import proofs.«147376_j33913061769570_2_alg».proof.Proof.EntryArrays
import proofs.«147376_j33913061769570_2_alg».proof.Proof.Blocks
import proofs.«147376_j33913061769570_2_alg».proof.Proof.PackedDot
import Idealize.ShloMosaic.Lib.StableHlo.Run
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.StableHlo
open Idealize.ShloMosaic.ValueIdx

namespace Cert.KernelIdeal.Whole

open Cert.KernelIdeal Cert.KernelIdeal.Gen Cert.KernelIdeal.Entry Cert.PackedDot

variable (m : (ℓ : Loc nD τ sig) → Buf (Elt Ideal) ℓ) (ρ : Dev nD → PrngReg)

/-- The packed layer of the packed arguments, unpacked, is the linear layer of the arguments. -/
theorem unpack_eq (x : S4194304x64.Idx → EReal) (W : S64x64.Idx → EReal) (b : S64.Idx → EReal) :
    shapeCast S4194304x64 (packedLin (packX x) (packW W) (packB b)) shapeCasts_S2097152x128_S4194304x64 = lin x W b := by
  funext i
  obtain ⟨n, h, rfl⟩ : ∃ (n : Fin 4194304) (h : Fin 64), i = ix2 n h := ⟨i 0, i 1, eq_ix2 i⟩
  have hn := n.isLt
  have hh := h.isLt
  have hr : n.val / 2 < 2097152 := by omega
  have hj : n.val % 2 * 64 + h.val < 128 := by omega
  refine (shapeCast_apply _ shapeCasts_S2097152x128_S4194304x64 (ix2 n h)
    (ix2 (⟨n.val / 2, hr⟩ : Fin 2097152) (⟨n.val % 2 * 64 + h.val, hj⟩ : Fin 128)) (by
      rw [Shape.rowMajor_val_two, Shape.rowMajor_val_two]
      show n.val / 2 * 128 + (n.val % 2 * 64 + h.val) = n.val * 64 + h.val
      omega)).trans ?_
  exact packedLin_eq_lin x W b (packX x) (packW W) (packB b) (packX_apply x) (packW_diag W) (packW_off W) (packB_apply b)
    ⟨n.val / 2, hr⟩ ⟨n.val % 2 * 64 + h.val, hj⟩ n h (n.val % 2) (Nat.mod_lt _ (by decide))
    (by show n.val = 2 * (n.val / 2) + n.val % 2; omega) rfl

/-- What the line after the region leaves in the result: the packed output, unpacked. -/
theorem tail_eq (c : Dev nD) :
    Pipeline.afterTail₀ cfgs (dats m) 0 (V0 m) [hostOps1] c main_v9
      = shapeCast S4194304x64 ((dats m 0 c).arrAt 3 cfg0.N) shapeCasts_S2097152x128_S4194304x64 := by
  unfold Pipeline.afterTail₀
  show StableHlo.after hostOps1 _ (Proc.devRef .tc main_v9) = _
  after_results
  rw [Pipeline.withArrays_arr spec0 launch0.win.arr_inj c _ _ 3]
  rfl

/-- The result after the run is the linear layer of the arguments. -/
theorem result_eq (c : Dev nD) :
    Pipeline.afterTail₀ cfgs (dats m) 0 (V0 m) [hostOps1] c main_v9
      = lin (m ((c : Thread nD τ).loc main_arg0)) (m ((c : Thread nD τ).loc main_arg1)) (m ((c : Thread nD τ).loc main_arg2)) := by
  rw [tail_eq, Blocks.final, table_eq, weight_eq, bias_eq]
  exact unpack_eq _ _ _

/-- The run, read: the result at the linear layer of the arguments, the arguments unchanged. -/
theorem run : θ_run defs (onTc (τ := τ) (main (F := Ideal))) ⟨m, fun _ => 0, ρ⟩ fun r => ∀ c : Dev nD,
      r.2.mem ((c.tc : Thread nD τ).loc main_v9)
        = lin (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.RefSide.lean ====
/-
  The reference's result as the same function of its arguments.

  The reference contracts the table's columns against the weight's columns (an output-major weight), then adds the
  bias repeated down the rows. Read at entry `(n, h)` that is `∑ i, x (n, i) · W (h, i) + b h`: the linear layer.
-/
import proofs.«147376_j33913061769570_2_alg».proof.Proof.Gen.ReferenceIdeal.Read
import proofs.«147376_j33913061769570_2_alg».proof.Proof.PackedDot
import Idealize.ShloMosaic.Lib.ValueIdx

noncomputable section

open scoped BigOperators
open Idealize.ShloMosaic Idealize.ShloMosaic.ValueIdx

namespace Cert.ReferenceIdeal.RefValue

open Cert.ReferenceIdeal Cert.ReferenceIdeal.Gen Cert.ReferenceIdeal.Read Cert.PackedDot

/-- The reference's last stage is the linear layer of its arguments. -/
theorem ref_eq (x0 : S4194304x64.Idx → EReal) (x1 : S64x64.Idx → EReal) (x2 : S64.Idx → EReal) :
    val_main_v3 (F := Ideal) x0 x1 x2 = lin x0 x1 x2 := by
  funext i
  obtain ⟨n, h, rfl⟩ : ∃ (n : Fin 4194304) (h : Fin 64), i = ix2 n h := ⟨i 0, i 1, eq_ix2 i⟩
  have el : ∀ k : Fin 64, lidx_main_v0 (ix2 n h) k = ix2 n k := fun k => funext fun a => Fin.ext (by
    match a with
    | ⟨0, _⟩ => rfl
    | ⟨1, _⟩ => rfl)
  have er : ∀ k : Fin 64, ridx_main_v0 (ix2 n h) k = ix2 h k := fun k => funext fun a => Fin.ext (by
    match a with
    | ⟨0, _⟩ => rfl
    | ⟨1, _⟩ => rfl)
  have eb : idx_main_v1 (idx_main_v2 (ix2 n h)) = ix1 h := funext fun a => Fin.ext (by
    match a with
    | ⟨0, _⟩ => rfl)
  rw [val_main_v3_apply, val_main_v0_apply, val_main_v2_apply, val_main_v1_apply, lin_apply]
  simp only [el, er, eb]
  rfl

end Cert.ReferenceIdeal.RefValue

end
-- ==== Proof.lean ====
/-
  A linear layer `x · Wᵀ + b` over 4194304 rows of 64 entries, computed two rows at a time.

  The kernel packs rows `2r` and `2r + 1` of the table into one row of 128 lanes, multiplies by the 128 × 128 weight that
  carries `Wᵀ` on its two diagonal blocks and zero elsewhere, adds the bias written twice, and unpacks. The reference
  contracts the table against the weight directly and adds the bias. At the ideal values both results are
  `∑ i, x (n, i) · W (h, i) + b h` at every entry `(n, h)`: in the kernel's sum over 128 lanes the 64 lanes that belong to the
  neighbouring row meet a zero of the weight, and a product with zero vanishes for every extended real, so no
  finiteness of the inputs is used. The idealization rewrote nothing, so the word-level kernel's sanctioned
  idealization is its own text. The three frames are the generated runs.
-/
import proofs.«147376_j33913061769570_2_alg».proof.Defs
import proofs.«147376_j33913061769570_2_alg».proof.Proof.Gen.Kernel
import proofs.«147376_j33913061769570_2_alg».proof.Proof.Gen.Kernel.Skeleton
import proofs.«147376_j33913061769570_2_alg».proof.Proof.Gen.Kernel.Launch
import proofs.«147376_j33913061769570_2_alg».proof.Proof.Gen.Kernel.Points
import proofs.«147376_j33913061769570_2_alg».proof.Proof.Gen.Kernel.Frame
import proofs.«147376_j33913061769570_2_alg».proof.Proof.Gen.KernelIdeal
import proofs.«147376_j33913061769570_2_alg».proof.Proof.Gen.KernelIdeal.Skeleton
import proofs.«147376_j33913061769570_2_alg».proof.Proof.Gen.KernelIdeal.Launch
import proofs.«147376_j33913061769570_2_alg».proof.Proof.Gen.KernelIdeal.Points
import proofs.«147376_j33913061769570_2_alg».proof.Proof.Gen.KernelIdeal.Frame
import proofs.«147376_j33913061769570_2_alg».proof.Proof.Gen.ReferenceIdeal
import proofs.«147376_j33913061769570_2_alg».proof.Proof.Gen.ReferenceIdeal.Run
import proofs.«147376_j33913061769570_2_alg».proof.Proof.Gen.ReferenceIdeal.Read
import proofs.«147376_j33913061769570_2_alg».proof.Proof.Gen.Pre_finite_inputs
import proofs.«147376_j33913061769570_2_alg».proof.Proof.PackedDot
import proofs.«147376_j33913061769570_2_alg».proof.Proof.Whole
import proofs.«147376_j33913061769570_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the ideal values. -/
theorem preserves : Cert.preserves_Kernel_KernelIdeal := trivial

/-- Both programs end with the linear layer of the arguments in their result. -/
theorem algebraic : Cert.algebraic_KernelIdeal_ReferenceIdeal := by
  intro m ρ m' ρ' _ hagree
  refine ⟨fun c => Cert.PackedDot.lin
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
